-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S4x512x512 : Shape := ⟨3, ![4, 512, 512]⟩
abbrev S4x512 : Shape := ⟨2, ![4, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_

variable [Facts]

def fn {F : FTy → Type} [FloatOps F] (main_arg0 : FVec F S16384x512 .f32) (main_arg1 : FVec F S4x512x512 .f32) (main_arg2 : FVec F S4x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S4x512 .f32 := Host.absf main_arg2
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  main_v13
-- ==== Kernel.lean ====
abbrev S16384x512 : Shape := ⟨2, ![16384, 512]⟩
abbrev S4x512x512 : Shape := ⟨3, ![4, 512, 512]⟩
abbrev S4x512 : Shape := ⟨2, ![4, 512]⟩
abbrev S16384x2048 : Shape := ⟨2, ![16384, 2048]⟩
abbrev S1024x512 : Shape := ⟨2, ![1024, 512]⟩
abbrev S1024x2048 : Shape := ⟨2, ![1024, 2048]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1024 : Shape := ⟨1, ![1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S4x512x512, .f32⟩
  | .hbm, ⟨2, _⟩ => ⟨S4x512, .f32⟩
  | .hbm, ⟨3, _⟩ => ⟨S4x512x512, .bf16⟩
  | .hbm, ⟨4, _⟩ => ⟨S4x512x512, .bf16⟩
  | .hbm, ⟨5, _⟩ => ⟨S16384x2048, .f32⟩
  | .local _ .vmem, ⟨0, _⟩ => ⟨S1024x512, .f32⟩
  | .local _ .vmem, ⟨1, _⟩ => ⟨S1024x512, .f32⟩
  | .local _ .vmem, ⟨2, _⟩ => ⟨S4x512x512, .bf16⟩
  | .local _ .vmem, ⟨3, _⟩ => ⟨S4x512, .f32⟩
  | .local _ .vmem, ⟨4, _⟩ => ⟨S1024x2048, .f32⟩
  | .local _ .vmem, ⟨5, _⟩ => ⟨S1024x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S4x512x512_S4x512x512_0_2_1 : S4x512x512.Transposes [0, 2, 1] S4x512x512
  inb_S1024x512_S1024x512_0_0 : ∀ a, (![0, 0] : Fin 2 → Nat) a + S1024x512.size a ≤ S1024x512.size a
  h_S1024x512 : 0 < S1024x512.numel
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  inb_S4x512_S1x512_0_0 : ∀ a, (![0, 0] : Fin 2 → Nat) a + S1x512.size a ≤ S4x512.size a
  h_S1x512 : 0 < S1x512.numel
  shapeCasts_S1x512_S512 : S1x512.ShapeCasts S512
  shapeCasts_S512_S1x512 : S512.ShapeCasts S1x512
  broadcasts_S1x512_S1024x512 : S1x512.Broadcasts S1024x512
  inb_S1024x2048_S1024x512_0_0 : ∀ a, (![0, 0] : Fin 2 → Nat) a + S1024x512.size a ≤ S1024x2048.size a
  reduces_S1024x512_S1024 : S1024x512.Reduces [1] S1024
  shapeCasts_S1024_S1024x1 : S1024.ShapeCasts S1024x1
  broadcasts_S1024x1_S1024x512 : S1024x1.Broadcasts S1024x512
  inb_S4x512x512_S1x512x512_1_0_0 : ∀ a, (![1, 0, 0] : Fin 3 → Nat) a + S1x512x512.size a ≤ S4x512x512.size a
  inb_S4x512_S1x512_1_0 : ∀ a, (![1, 0] : Fin 2 → Nat) a + S1x512.size a ≤ S4x512.size a
  inb_S1024x2048_S1024x512_0_512 : ∀ a, (![0, 512] : Fin 2 → Nat) a + S1024x512.size a ≤ S1024x2048.size a
  inb_S4x512x512_S1x512x512_2_0_0 : ∀ a, (![2, 0, 0] : Fin 3 → Nat) a + S1x512x512.size a ≤ S4x512x512.size a
  inb_S4x512_S1x512_2_0 : ∀ a, (![2, 0] : Fin 2 → Nat) a + S1x512.size a ≤ S4x512.size a
  inb_S1024x2048_S1024x512_0_1024 : ∀ a, (![0, 1024] : Fin 2 → Nat) a + S1024x512.size a ≤ S1024x2048.size a
  inb_S4x512x512_S1x512x512_3_0_0 : ∀ a, (![3, 0, 0] : Fin 3 → Nat) a + S1x512x512.size a ≤ S4x512x512.size a
  inb_S4x512_S1x512_3_0 : ∀ a, (![3, 0] : Fin 2 → Nat) a + S1x512.size a ≤ S4x512.size a
  inb_S1024x2048_S1024x512_0_1536 : ∀ a, (![0, 1536] : Fin 2 → Nat) a + S1024x512.size a ≤ S1024x2048.size a
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S4x512x512.size a
  hwx0_1 : ∀ i : grid0.Coords, EltTy.bits .bf16 = 32 ∨ (Rect.block (s := S4x512x512) S4x512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x512.size a
  hwx0_2 : ∀ i : grid0.Coords, EltTy.bits .f32 = 32 ∨ (Rect.block (s := S4x512) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x2048.size a
  hwx0_3 : ∀ i : grid0.Coords, EltTy.bits .f32 = 32 ∨ (Rect.block (s := S16384x2048) S1024x2048.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S4x512x512 : Shape := ⟨3, ![4, 512, 512]⟩
abbrev S4x512 : Shape := ⟨2, ![4, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S4x512x512, .f32⟩
  | .hbm, ⟨2, _⟩ => ⟨S4x512, .f32⟩
  | .hbm, ⟨3, _⟩ => ⟨S1x512x512, .f32⟩
  | .hbm, ⟨4, _⟩ => ⟨S512x512, .f32⟩
  | .hbm, ⟨5, _⟩ => ⟨S16384x512, .f32⟩
  | .hbm, ⟨6, _⟩ => ⟨S1x512, .f32⟩
  | .hbm, ⟨7, _⟩ => ⟨S512, .f32⟩
  | .hbm, ⟨8, _⟩ => ⟨S1x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x512, .f32⟩
  | .hbm, ⟨16, _⟩ => ⟨S16384x512, .f32⟩
  | .hbm, ⟨17, _⟩ => ⟨S1x512x512, .f32⟩
  | .hbm, ⟨18, _⟩ => ⟨S512x512, .f32⟩
  | .hbm, ⟨19, _⟩ => ⟨S16384x512, .f32⟩
  | .hbm, ⟨20, _⟩ => ⟨S1x512, .f32⟩
  | .hbm, ⟨21, _⟩ => ⟨S512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x512, .f32⟩
  | .hbm, ⟨36, _⟩ => ⟨S16384x512, .f32⟩
  | .hbm, ⟨37, _⟩ => ⟨S1x512x512, .f32⟩
  | .hbm, ⟨38, _⟩ => ⟨S512x512, .f32⟩
  | .hbm, ⟨39, _⟩ => ⟨S16384x512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x512, .f32⟩
  | .hbm, ⟨56, _⟩ => ⟨S16384x512, .f32⟩
  | .hbm, ⟨57, _⟩ => ⟨S16384x512, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x512, .f32⟩
  | .hbm, ⟨62, _⟩ => ⟨S16384x512, .f32⟩
  | .hbm, ⟨63, _⟩ => ⟨S1x512x512, .f32⟩
  | .hbm, ⟨64, _⟩ => ⟨S512x512, .f32⟩
  | .hbm, ⟨65, _⟩ => ⟨S16384x512, .f32⟩
  | .hbm, ⟨66, _⟩ => ⟨S1x512, .f32⟩
  | .hbm, ⟨67, _⟩ => ⟨S512, .f32⟩
  | .hbm, ⟨68, _⟩ => ⟨S1x512, .f32⟩
  | .hbm, ⟨69, _⟩ => ⟨S16384x512, .f32⟩
  | .hbm, ⟨70, _⟩ => ⟨S16384x512, .f32⟩
  | .hbm, ⟨71, _⟩ => ⟨S16384x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_3 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_4 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩

abbrev nD : Nat := 1
abbrev τ : Topo := Topo.v7x

variable {F : FTy → Type} [FloatOps F]

class Facts₀ : Prop where
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  shapeCasts_S1x512_S512 : S1x512.ShapeCasts S512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  slices_S4x512x512_S1x512x512_1_0_0 : S4x512x512.Slices ![1, 0, 0] S1x512x512
  slices_S4x512_S1x512_1_0 : S4x512.Slices ![1, 0] S1x512
  slices_S4x512x512_S1x512x512_2_0_0 : S4x512x512.Slices ![2, 0, 0] S1x512x512
  slices_S4x512_S1x512_2_0 : S4x512.Slices ![2, 0] S1x512
  slices_S4x512x512_S1x512x512_3_0_0 : S4x512x512.Slices ![3, 0, 0] S1x512x512
  slices_S4x512_S1x512_3_0 : S4x512.Slices ![3, 0] S1x512
  concatenates_S16384x512_S16384x512_S16384x512_S16384x512_S16384x2048_d1 : Shape.Concatenates [S16384x512, S16384x512, S16384x512, S16384x512] S16384x2048 1
  dot_S16384x512_S512x512_S16384x512_1_1_0_0_n_n_wf : DotDims.WF S16384x512 S512x512 S16384x512 [1] [1] [0] [0] [] []

variable [Facts₀]

def dot_S16384x512_S512x512_S16384x512_1_1_0_0_n_n : DotDims S16384x512 S512x512 S16384x512 where
  lhsContracting := [1]
  rhsContracting := [1]
  lhsNonContracting := [0]
  rhsNonContracting := [0]
  lhsBatch := []
  rhsBatch := []
  wf := dot_S16384x512_S512x512_S16384x512_1_1_0_0_n_n_wf

class Facts : Prop extends Facts₀ where

variable [Facts]
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«168108_j60430189854994_2_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.CrossSpec.lean ====
/-
  Four dense layers with dot-product residuals, one row at a time, on the extended reals.

  A row x of 512 numbers is carried through four dense layers, v ↦ v·w + b.  Layer 0 takes x itself.  Before a
  later layer the running vector, which starts as the previous layer's output, is corrected once for every earlier
  activation u, in the order x, y₀, y₁, …: its dot product with u is added to each of its entries.  The four
  outputs y₀ … y₃ are laid side by side, 512 columns each, so a row of the result has 2048 entries.

  Nothing here needs a finite input: the definitions only add and multiply, and every lemma below is an
  unfolding.
-/
import Idealize.ShloMosaic.PureOps.Ideal
import Idealize.ShloMosaic.Lib.ValueIdx

noncomputable section

namespace Cert.Cross

open Idealize.ShloMosaic Idealize.ShloMosaic.ValueIdx

/-- Row `r` of a two-dimensional array. -/
def rowOf {n k : Nat} (A : (⟨2, ![n, k]⟩ : Shape).Idx → EReal) (r : Fin n) : Fin k → EReal := fun d => A (ix2 r d)

theorem rowOf_apply {n k : Nat} (A : (⟨2, ![n, k]⟩ : Shape).Idx → EReal) (r : Fin n) (d : Fin k) :
    rowOf A r d = A (ix2 r d) := rfl

/-- A dense layer on one row: entry `e` is the dot product of the row with column `e` of the weight, plus the bias. -/
def dense (w : Fin 512 → Fin 512 → EReal) (b : Fin 512 → EReal) (v : Fin 512 → EReal) : Fin 512 → EReal :=
  fun e => (∑ d : Fin 512, v d * w d e) + b e

/-- The residual step: the dot product of `v` with an earlier activation `u`, added to every entry of `v`. -/
def resid (v u : Fin 512 → EReal) : Fin 512 → EReal := fun d => v d + ∑ k : Fin 512, v k * u k

section Chain

variable (w : Fin 4 → Fin 512 → Fin 512 → EReal) (b : Fin 4 → Fin 512 → EReal) (x : Fin 512 → EReal)

/-- The four activations of one row. -/
def act0 : Fin 512 → EReal := dense (w 0) (b 0) x
def act1 : Fin 512 → EReal := dense (w 1) (b 1) (resid (act0 w b x) x)
def act2 : Fin 512 → EReal := dense (w 2) (b 2) (resid (resid (act1 w b x) x) (act0 w b x))
def act3 : Fin 512 → EReal :=
  dense (w 3) (b 3) (resid (resid (resid (act2 w b x) x) (act0 w b x)) (act1 w b x))

end Chain

/-- Four vectors of 512 entries laid end to end. -/
def joined (a0 a1 a2 a3 : Fin 512 → EReal) (c : Fin 2048) : EReal :=
  if h0 : c.val < 512 then a0 ⟨c.val, h0⟩
  else if h1 : c.val < 1024 then a1 ⟨c.val - 512, by omega⟩
  else if h2 : c.val < 1536 then a2 ⟨c.val - 1024, by omega⟩
  else a3 ⟨c.val - 1536, by have := c.isLt; omega⟩

section Joined

variable (a0 a1 a2 a3 : Fin 512 → EReal) (c : Fin 2048) (q : Fin 512)

theorem joined_first (h : c.val = q.val) : joined a0 a1 a2 a3 c = a0 q := by
  have hq := q.isLt
  unfold joined
  rw [dif_pos (by omega)]
  exact congrArg a0 (Fin.ext h)

theorem joined_second (h : c.val = 512 + q.val) : joined a0 a1 a2 a3 c = a1 q := by
  have hq := q.isLt
  unfold joined
  rw [dif_neg (by omega), dif_pos (by omega)]
  exact congrArg a1 (Fin.ext (by show c.val - 512 = q.val; omega))

theorem joined_third (h : c.val = 1024 + q.val) : joined a0 a1 a2 a3 c = a2 q := by
  have hq := q.isLt
  unfold joined
  rw [dif_neg (by omega), dif_neg (by omega), dif_pos (by omega)]
  exact congrArg a2 (Fin.ext (by show c.val - 1024 = q.val; omega))

theorem joined_fourth (h : c.val = 1536 + q.val) : joined a0 a1 a2 a3 c = a3 q := by
  have hq := q.isLt
  unfold joined
  rw [dif_neg (by omega), dif_neg (by omega), dif_neg (by omega)]
  exact congrArg a3 (Fin.ext (by show c.val - 1536 = q.val; omega))

end Joined

/-- The result over any number of rows: row `r` of the result is the four activations of row `r` of the input, laid
    end to end. -/
def crossRows {n : Nat} (X : (⟨2, ![n, 512]⟩ : Shape).Idx → EReal) (w : Fin 4 → Fin 512 → Fin 512 → EReal)
    (b : Fin 4 → Fin 512 → EReal) : (⟨2, ![n, 2048]⟩ : Shape).Idx → EReal :=
  fun i => joined (act0 w b (rowOf X (i 0))) (act1 w b (rowOf X (i 0))) (act2 w b (rowOf X (i 0)))
    (act3 w b (rowOf X (i 0))) (i 1)

theorem crossRows_apply {n : Nat} (X : (⟨2, ![n, 512]⟩ : Shape).Idx → EReal) (w : Fin 4 → Fin 512 → Fin 512 → EReal)
    (b : Fin 4 → Fin 512 → EReal) (r : Fin n) (c : Fin 2048) :
    crossRows X w b (ix2 r c)
      = joined (act0 w b (rowOf X r)) (act1 w b (rowOf X r)) (act2 w b (rowOf X r)) (act3 w b (rowOf X r)) c := rfl

/-- The weight of layer `l` as a dense layer uses it, from a stack of four matrices stored output-major: entry
    (d, e) is the stored entry (l, e, d). -/
def weightOf (W : (⟨3, ![4, 512, 512]⟩ : Shape).Idx → EReal) : Fin 4 → Fin 512 → Fin 512 → EReal :=
  fun l d e => W (ix3 l e d)

/-- The bias of layer `l` from a stack of four vectors. -/
def biasOf (B : (⟨2, ![4, 512]⟩ : Shape).Idx → EReal) : Fin 4 → Fin 512 → EReal := fun l e => B (ix2 l e)

/-- The whole result: 16384 rows, each the four activations of the matching input row. -/
def crossOut (X : (⟨2, ![16384, 512]⟩ : Shape).Idx → EReal) (W : (⟨3, ![4, 512, 512]⟩ : Shape).Idx → EReal)
    (B : (⟨2, ![4, 512]⟩ : Shape).Idx → EReal) : (⟨2, ![16384, 2048]⟩ : Shape).Idx → EReal :=
  crossRows X (weightOf W) (biasOf B)

end Cert.Cross

end
-- ==== Proof.CrossBlock.lean ====
/-
  The two steps of the layer stack over one block of rows, as a kernel body spells them, read one row at a time.

  A dense layer over an [M, 512] block: the block is multiplied into a zero accumulator by a [512, 512] weight
  that arrives as a [1, 512, 512] slab, and a bias that arrives as a [1, 512] slab is viewed as a vector, then as
  one row, and repeated over the M rows.  Row p of the result is the dense layer of row p of the block.

  A residual step: the product of two blocks is summed along each row, the M sums are viewed as a column and the
  column is repeated along the row, then added.  Row p of the result is the residual step of the two rows p.

  A change of float format on the way into the product is the identity on the extended reals.
-/
import Idealize.ShloMosaic.PureOps.Ideal.Laws
import Idealize.ShloMosaic.Lib.ValueIdx
import Idealize.ShloMosaic.Lib.ValueLayout
import Idealize.ShloMosaic.Lib.Pipeline.Value
import proofs.«168108_j60430189854994_2_alg».proof.Proof.LibRowOps
import proofs.«168108_j60430189854994_2_alg».proof.Proof.LibDense
import proofs.«168108_j60430189854994_2_alg».proof.Proof.CrossSpec

noncomputable section

namespace Cert.Cross

open Idealize.ShloMosaic Idealize.ShloMosaic.ValueIdx Cert.RowOps Cert.Dense

/-- The weight a [1, 512, 512] slab holds: entry (k, e) multiplies input coordinate k into output e. -/
def slabW (v : (⟨3, ![1, 512, 512]⟩ : Shape).Idx → EReal) : Fin 512 → Fin 512 → EReal := fun k e => v (ix3 (0 : Fin 1) k e)

/-- The bias a [1, 512] slab holds. -/
def slabB (v : (⟨2, ![1, 512]⟩ : Shape).Idx → EReal) : Fin 512 → EReal := fun e => v (ix2 (0 : Fin 1) e)

section Block

variable {M : Nat} {d : DotDims ⟨2, ![M, 512]⟩ ⟨2, ![512, 512]⟩ ⟨2, ![M, 512]⟩}

/-- A dense layer over a block, one row at a time. -/
theorem blockDense_row (hd : IsPlain d) (a : FVec Ideal ⟨2, ![M, 512]⟩ .f32) (wl : FVec Ideal ⟨3, ![1, 512, 512]⟩ .bf16)
    (bl : FVec Ideal ⟨2, ![1, 512]⟩ .f32) (hlt : FTy.bf16.bits < FTy.f32.bits)
    (hw : (⟨3, ![1, 512, 512]⟩ : Shape).ShapeCasts ⟨2, ![512, 512]⟩)
    (h1 : (⟨2, ![1, 512]⟩ : Shape).ShapeCasts ⟨1, ![512]⟩) (h2 : (⟨1, ![512]⟩ : Shape).ShapeCasts ⟨2, ![1, 512]⟩)
    (hb : (⟨2, ![1, 512]⟩ : Shape).Broadcasts ⟨2, ![M, 512]⟩) (p : Fin M) :
    rowOf (addf (matmul d none (truncf .bf16 a hlt) (shapeCast ⟨2, ![512, 512]⟩ wl hw)
          (constant ⟨2, ![M, 512]⟩ .f32 0x00000000#32))
        (broadcastTo ⟨2, ![M, 512]⟩ (shapeCast ⟨2, ![1, 512]⟩ (shapeCast ⟨1, ![512]⟩ bl h1) h2) hb)) p
      = dense (slabW wl) (slabB bl) (rowOf a p) := by
  funext e
  show addf _ _ (ix2 p e) = (∑ k : Fin 512, a (ix2 p k) * wl (ix3 (0 : Fin 1) k e)) + bl (ix2 (0 : Fin 1) e)
  rw [addf_apply, rowBias_apply, shapeCast_1a_a_apply]
  refine congrArg (· + bl (ix2 (0 : Fin 1) e)) ?_
  refine (matmul_zero_apply hd none _ _ p e).trans (Finset.sum_congr rfl fun k _ => ?_)
  rw [truncf_apply, shapeCast_1ab_ab_apply]

/-- A residual step over two blocks, one row at a time. -/
theorem blockResid_row (a u : FVec Ideal ⟨2, ![M, 512]⟩ .f32)
    (hr : (⟨2, ![M, 512]⟩ : Shape).Reduces [1] ⟨1, ![M]⟩) (hφ : FKind.Formats FTy.f32)
    (hacc : (0x00000000#32 : BitVec FTy.f32.bits) = FKind.add.neutral .f32 hφ)
    (hs : (⟨1, ![M]⟩ : Shape).ShapeCasts ⟨2, ![M, 1]⟩) (hb : (⟨2, ![M, 1]⟩ : Shape).Broadcasts ⟨2, ![M, 512]⟩)
    (p : Fin M) :
    rowOf (addf a (broadcastTo ⟨2, ![M, 512]⟩ (shapeCast ⟨2, ![M, 1]⟩
        (multiReduction .add [1] ⟨1, ![M]⟩ (mulf a u) 0x00000000#32 hr hφ hacc) hs) hb)) p
      = resid (rowOf a p) (rowOf u p) := by
  funext k
  show addf _ _ (ix2 p k) = a (ix2 p k) + ∑ j : Fin 512, a (ix2 p j) * u (ix2 p j)
  rw [addf_apply, spread_apply, column_apply]
  exact congrArg (a (ix2 p k) + ·) (rowSum_apply (mulf a u) _ hr hφ hacc p)

end Block

end Cert.Cross

end
-- ==== Proof.CrossPayload.lean ====
/-
  What the kernel body stores, one row at a time.

  The body keeps five values of one [1024, 512] block of rows x: the three activations y₀, y₁, y₂ it stores,
  the corrected vector that goes into layer 2, and the last activation y₃.  Each is a dense layer applied to the
  previous value after its residual steps, so row p of each of them is the matching expression of row p of x —
  with the weight and bias of layer l read from the l-th [1, 512, 512] and [1, 512] slabs the body loads.
-/
import proofs.«168108_j60430189854994_2_alg».proof.Proof.Gen.KernelIdeal.Skeleton
import proofs.«168108_j60430189854994_2_alg».proof.Proof.CrossBlock

noncomputable section

namespace Cert.KernelIdeal.CrossValue

open Cert.KernelIdeal Cert.KernelIdeal.Gen
open Idealize.ShloMosaic Idealize.ShloMosaic.ValueIdx Cert.Cross Cert.RowOps

/-- The body's matrix product is a plain [1024, 512] × [512, 512] product. -/
theorem dot_plain : IsPlain dot_S1024x512_S512x512_S1024x512_1_0_0_1_n_n := ⟨rfl, rfl, rfl, rfl, rfl, rfl⟩

variable (v0 : FVec Ideal S1024x512 .f32) (w0 w1 w2 w3 : FVec Ideal S1x512x512 .bf16) (b0 b1 b2 b3 : FVec Ideal S1x512 .f32)
variable (p : Fin 1024)

/-- The first activation: the dense layer of the row. -/
theorem pay3_row : rowOf (k0_pay3 (F := Ideal) v0 w0 b0) p = dense (slabW w0) (slabB b0) (rowOf v0 p) := by
  unfold k0_pay3
  exact blockDense_row dot_plain v0 w0 b0 _ _ _ _ _ p

/-- The second activation: one residual step against the row, then the dense layer. -/
theorem pay4_row : rowOf (k0_pay4 (F := Ideal) v0 w0 b0 w1 b1) p
    = dense (slabW w1) (slabB b1) (resid (rowOf (k0_pay3 (F := Ideal) v0 w0 b0) p) (rowOf v0 p)) := by
  unfold k0_pay4
  refine (blockDense_row dot_plain _ w1 b1 _ _ _ _ _ p).trans ?_
  exact congrArg (dense (slabW w1) (slabB b1)) (blockResid_row (k0_pay3 (F := Ideal) v0 w0 b0) v0 _ _ _ _ _ p)

/-- What goes into the third layer: the second activation after residual steps against the row and the first
    activation. -/
theorem pay5_row : rowOf (k0_pay5 (F := Ideal) v0 w0 b0 w1 b1) p
    = resid (resid (rowOf (k0_pay4 (F := Ideal) v0 w0 b0 w1 b1) p) (rowOf v0 p)) (rowOf (k0_pay3 (F := Ideal) v0 w0 b0) p) := by
  unfold k0_pay5
  refine (blockResid_row _ (k0_pay3 (F := Ideal) v0 w0 b0) _ _ _ _ _ p).trans ?_
  exact congrArg (resid · (rowOf (k0_pay3 (F := Ideal) v0 w0 b0) p)) (blockResid_row (k0_pay4 (F := Ideal) v0 w0 b0 w1 b1) v0 _ _ _ _ _ p)

variable (v35 v9 v24 : FVec Ideal S1024x512 .f32)

/-- The third activation: the dense layer of what went in. -/
theorem pay1_row : rowOf (k0_pay1 (F := Ideal) v35 w2 b2) p = dense (slabW w2) (slabB b2) (rowOf v35 p) := by
  unfold k0_pay1
  exact blockDense_row dot_plain v35 w2 b2 _ _ _ _ _ p

/-- The fourth activation: three residual steps, against the row and the first two activations, then the dense
    layer. -/
theorem pay2_row : rowOf (k0_pay2 (F := Ideal) v0 v9 v24 v35 w2 b2 w3 b3) p
    = dense (slabW w3) (slabB b3)
        (resid (resid (resid (rowOf (k0_pay1 (F := Ideal) v35 w2 b2) p) (rowOf v0 p)) (rowOf v9 p)) (rowOf v24 p)) := by
  unfold k0_pay2
  refine (blockDense_row dot_plain _ w3 b3 _ _ _ _ _ p).trans ?_
  refine congrArg (dense (slabW w3) (slabB b3)) ?_
  refine (blockResid_row _ v24 _ _ _ _ _ p).trans ?_
  refine congrArg (resid · (rowOf v24 p)) ?_
  refine (blockResid_row _ v9 _ _ _ _ _ p).trans ?_
  exact congrArg (resid · (rowOf v9 p)) (blockResid_row (k0_pay1 (F := Ideal) v35 w2 b2) v0 _ _ _ _ _ p)

end Cert.KernelIdeal.CrossValue

end
-- ==== Proof.CrossBody.lean ====
/-
  What the kernel body leaves in its [1024, 2048] output block.

  The body stores its four activations into the four [1024, 512] column bands of the block, in order.  Band l of
  row p is activation l of row p of the input block, so the block as a whole is the specification's array over the
  1024 rows of the input block — with the weight of layer l read from slab l of the [4, 512, 512] stack the body
  was handed (entry (l, k, e) multiplies input coordinate k into output e) and the bias from row l of the
  [4, 512] stack.
-/
import proofs.«168108_j60430189854994_2_alg».proof.Proof.Gen.KernelIdeal.Frame
import proofs.«168108_j60430189854994_2_alg».proof.Proof.CrossPayload
import Idealize.ShloMosaic.Lib.Pipeline.Value

noncomputable section

namespace Cert.KernelIdeal.CrossValue

open Cert.KernelIdeal Cert.KernelIdeal.Gen
open Idealize.ShloMosaic Idealize.ShloMosaic.ValueIdx Cert.Cross

/-- The four weights a [4, 512, 512] stack holds, input-major. -/
def stackW (x1 : (⟨3, ![4, 512, 512]⟩ : Shape).Idx → EReal) : Fin 4 → Fin 512 → Fin 512 → EReal :=
  fun l k e => x1 (ix3 l k e)

/-- The four biases a [4, 512] stack holds. -/
def stackB (x2 : (⟨2, ![4, 512]⟩ : Shape).Idx → EReal) : Fin 4 → Fin 512 → EReal := fun l e => x2 (ix2 l e)

theorem hz2 : (![0, 0] : Fin 2 → Nat) = fun _ => 0 := funext fun a => by fin_cases a <;> rfl

variable (x0 : FVec Ideal S1024x512 .f32) (x1 : FVec Ideal S4x512x512 .bf16) (x2 : FVec Ideal S4x512 .f32)

/-! ## The slabs the body loads are the slabs of the stacks -/

theorem ldW0 : slabW (View.ld (Val := Elt Ideal) (e' := .bf16) x1 r0_1) = stackW x1 0 := by
  funext k e
  show x1 (r0_1.emb (ix3 (0 : Fin 1) k e)) = x1 (ix3 (0 : Fin 4) k e)
  refine congrArg x1 (funext fun a => Fin.ext ?_)
  match a with
  | ⟨0, _⟩ => rfl
  | ⟨1, _⟩ => show 0 + 1 * k.val = k.val; omega
  | ⟨2, _⟩ => show 0 + 1 * e.val = e.val; omega

theorem ldW1 : slabW (View.ld (Val := Elt Ideal) (e' := .bf16) x1 r0_4) = stackW x1 1 := by
  funext k e
  show x1 (r0_4.emb (ix3 (0 : Fin 1) k e)) = x1 (ix3 (1 : Fin 4) k e)
  refine congrArg x1 (funext fun a => Fin.ext ?_)
  match a with
  | ⟨0, _⟩ => rfl
  | ⟨1, _⟩ => show 0 + 1 * k.val = k.val; omega
  | ⟨2, _⟩ => show 0 + 1 * e.val = e.val; omega

theorem ldW2 : slabW (View.ld (Val := Elt Ideal) (e' := .bf16) x1 r0_7) = stackW x1 2 := by
  funext k e
  show x1 (r0_7.emb (ix3 (0 : Fin 1) k e)) = x1 (ix3 (2 : Fin 4) k e)
  refine congrArg x1 (funext fun a => Fin.ext ?_)
  match a with
  | ⟨0, _⟩ => rfl
  | ⟨1, _⟩ => show 0 + 1 * k.val = k.val; omega
  | ⟨2, _⟩ => show 0 + 1 * e.val = e.val; omega

theorem ldW3 : slabW (View.ld (Val := Elt Ideal) (e' := .bf16) x1 r0_10) = stackW x1 3 := by
  funext k e
  show x1 (r0_10.emb (ix3 (0 : Fin 1) k e)) = x1 (ix3 (3 : Fin 4) k e)
  refine congrArg x1 (funext fun a => Fin.ext ?_)
  match a with
  | ⟨0, _⟩ => rfl
  | ⟨1, _⟩ => show 0 + 1 * k.val = k.val; omega
  | ⟨2, _⟩ => show 0 + 1 * e.val = e.val; omega

theorem ldB0 : slabB (View.ld (Val := Elt Ideal) (e' := .f32) x2 r0_2) = stackB x2 0 := by
  funext e
  show x2 (r0_2.emb (ix2 (0 : Fin 1) e)) = x2 (ix2 (0 : Fin 4) e)
  refine congrArg x2 (funext fun a => Fin.ext ?_)
  match a with
  | ⟨0, _⟩ => rfl
  | ⟨1, _⟩ => show 0 + 1 * e.val = e.val; omega

theorem ldB1 : slabB (View.ld (Val := Elt Ideal) (e' := .f32) x2 r0_5) = stackB x2 1 := by
  funext e
  show x2 (r0_5.emb (ix2 (0 : Fin 1) e)) = x2 (ix2 (1 : Fin 4) e)
  refine congrArg x2 (funext fun a => Fin.ext ?_)
  match a with
  | ⟨0, _⟩ => rfl
  | ⟨1, _⟩ => show 0 + 1 * e.val = e.val; omega

theorem ldB2 : slabB (View.ld (Val := Elt Ideal) (e' := .f32) x2 r0_8) = stackB x2 2 := by
  funext e
  show x2 (r0_8.emb (ix2 (0 : Fin 1) e)) = x2 (ix2 (2 : Fin 4) e)
  refine congrArg x2 (funext fun a => Fin.ext ?_)
  match a with
  | ⟨0, _⟩ => rfl
  | ⟨1, _⟩ => show 0 + 1 * e.val = e.val; omega

theorem ldB3 : slabB (View.ld (Val := Elt Ideal) (e' := .f32) x2 r0_11) = stackB x2 3 := by
  funext e
  show x2 (r0_11.emb (ix2 (0 : Fin 1) e)) = x2 (ix2 (3 : Fin 4) e)
  refine congrArg x2 (funext fun a => Fin.ext ?_)
  match a with
  | ⟨0, _⟩ => rfl
  | ⟨1, _⟩ => show 0 + 1 * e.val = e.val; omega

/-! ## The four stored values, one row at a time -/

variable (p : Fin 1024)

theorem stored0_row : rowOf (k0_pay3 (F := Ideal) x0 (View.ld x1 r0_1) (View.ld x2 r0_2)) p
    = act0 (stackW x1) (stackB x2) (rowOf x0 p) := by
  rw [pay3_row, ldW0, ldB0]
  rfl

theorem stored1_row : rowOf (k0_pay4 (F := Ideal) x0 (View.ld x1 r0_1) (View.ld x2 r0_2) (View.ld x1 r0_4) (View.ld x2 r0_5)) p
    = act1 (stackW x1) (stackB x2) (rowOf x0 p) := by
  rw [pay4_row, stored0_row, ldW1, ldB1]
  rfl

theorem stored2_row : rowOf (k0_pay1 (F := Ideal)
      (k0_pay5 x0 (View.ld x1 r0_1) (View.ld x2 r0_2) (View.ld x1 r0_4) (View.ld x2 r0_5)) (View.ld x1 r0_7) (View.ld x2 r0_8)) p
    = act2 (stackW x1) (stackB x2) (rowOf x0 p) := by
  rw [pay1_row, pay5_row, stored1_row, stored0_row, ldW2, ldB2]
  rfl

theorem stored3_row : rowOf (k0_pay2 (F := Ideal) x0
      (k0_pay3 x0 (View.ld x1 r0_1) (View.ld x2 r0_2))
      (k0_pay4 x0 (View.ld x1 r0_1) (View.ld x2 r0_2) (View.ld x1 r0_4) (View.ld x2 r0_5))
      (k0_pay5 x0 (View.ld x1 r0_1) (View.ld x2 r0_2) (View.ld x1 r0_4) (View.ld x2 r0_5))
      (View.ld x1 r0_7) (View.ld x2 r0_8) (View.ld x1 r0_10) (View.ld x2 r0_11)) p
    = act3 (stackW x1) (stackB x2) (rowOf x0 p) := by
  rw [pay2_row, stored2_row, stored1_row, stored0_row, ldW3, ldB3]
  rfl

/-! ## The block -/

/-- The output block after the body: the specification's array over the rows of the input block. -/
theorem out_eq : out0_3 (F := Ideal) x0 x1 x2 = crossRows x0 (stackW x1) (stackB x2) := by
  funext y
  unfold out0_3
  simp only [View.ld_unit_zero (S := S1024x512) hz2]
  refine View.canon_apply_of_pieces (Val := Elt Ideal) (e := .f32) (crossRows x0 (stackW x1) (stackB x2)) _ ?_ y (cover0_3 _ _ _ _ y)
  intro pc hpc x
  simp only [List.mem_cons, List.not_mem_nil, or_false] at hpc
  rcases hpc with rfl | rfl | rfl | rfl
  · obtain ⟨p, q, rfl⟩ : ∃ (p : Fin 1024) (q : Fin 512), x = ix2 p q := ⟨x 0, x 1, eq_ix2 x⟩
    have he : r0_12.emb (ix2 p q) = ix2 p (⟨1536 + q.val, by have := q.isLt; omega⟩ : Fin 2048) :=
      funext fun a => Fin.ext (by
        match a with
        | ⟨0, _⟩ => show 0 + 1 * p.val = p.val; omega
        | ⟨1, _⟩ => show 1536 + 1 * q.val = 1536 + q.val; omega)
    rw [he, crossRows_apply, joined_fourth _ _ _ _ _ q rfl]
    exact congrFun (stored3_row x0 x1 x2 p) q
  · obtain ⟨p, q, rfl⟩ : ∃ (p : Fin 1024) (q : Fin 512), x = ix2 p q := ⟨x 0, x 1, eq_ix2 x⟩
    have he : r0_9.emb (ix2 p q) = ix2 p (⟨1024 + q.val, by have := q.isLt; omega⟩ : Fin 2048) :=
      funext fun a => Fin.ext (by
        match a with
        | ⟨0, _⟩ => show 0 + 1 * p.val = p.val; omega
        | ⟨1, _⟩ => show 1024 + 1 * q.val = 1024 + q.val; omega)
    rw [he, crossRows_apply, joined_third _ _ _ _ _ q rfl]
    exact congrFun (stored2_row x0 x1 x2 p) q
  · obtain ⟨p, q, rfl⟩ : ∃ (p : Fin 1024) (q : Fin 512), x = ix2 p q := ⟨x 0, x 1, eq_ix2 x⟩
    have he : r0_6.emb (ix2 p q) = ix2 p (⟨512 + q.val, by have := q.isLt; omega⟩ : Fin 2048) :=
      funext fun a => Fin.ext (by
        match a with
        | ⟨0, _⟩ => show 0 + 1 * p.val = p.val; omega
        | ⟨1, _⟩ => show 512 + 1 * q.val = 512 + q.val; omega)
    rw [he, crossRows_apply, joined_second _ _ _ _ _ q rfl]
    exact congrFun (stored1_row x0 x1 x2 p) q
  · obtain ⟨p, q, rfl⟩ : ∃ (p : Fin 1024) (q : Fin 512), x = ix2 p q := ⟨x 0, x 1, eq_ix2 x⟩
    have he : r0_3.emb (ix2 p q) = ix2 p (⟨q.val, by have := q.isLt; omega⟩ : Fin 2048) :=
      funext fun a => Fin.ext (by
        match a with
        | ⟨0, _⟩ => show 0 + 1 * p.val = p.val; omega
        | ⟨1, _⟩ => show 0 + 1 * q.val = q.val; omega)
    rw [he, crossRows_apply, joined_first _ _ _ _ _ q rfl]
    exact congrFun (stored0_row x0 x1 x2 p) q

end Cert.KernelIdeal.CrossValue

end
-- ==== Proof.CrossArray.lean ====
/-
  The kernel's result array.

  The grid has 16 points.  Point t reads rows 1024·t … 1024·t + 1023 of the input, the whole weight stack and the
  whole bias stack, and writes rows 1024·t … 1024·t + 1023 of the result.  The weight stack the region finds is the
  input weight stack with every matrix transposed (a change of float format in between is the identity on the
  extended reals), so its entry (l, k, e) is the input's entry (l, e, k): exactly the weight the specification uses.
  What point t writes back is therefore block t of the specification's array, the 16 blocks cover the array, and the
  array ends holding the specification's array.
-/
import proofs.«168108_j60430189854994_2_alg».proof.Proof.Gen.KernelIdeal.Value
import proofs.«168108_j60430189854994_2_alg».proof.Proof.CrossBody
import Idealize.ShloMosaic.Lib.StableHlo.Run
import Idealize.ShloMosaic.Lib.ValueLayout
import Idealize.ShloMosaic.Lib.Pipeline.Value

noncomputable section

namespace Cert.KernelIdeal.CrossValue

open Cert.KernelIdeal Cert.KernelIdeal.Gen Cert.KernelIdeal.Value
open Idealize.ShloMosaic Idealize.ShloMosaic.TcCoe Idealize.ShloMosaic.ValueIdx Idealize.SL.Sem Cert.Cross
open Idealize.ShloMosaic.Pipeline (Dat)

variable (m : (ℓ : Loc nD τ sig) → Buf (Elt Ideal) ℓ) (ρ : Dev nD → PrngReg)

/-- The index maps over the grid: the input and the result move one block of rows per point, the two stacks stay. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight stack as the region finds it: the input stack, each matrix transposed. -/
theorem V_weights (c : Dev nD) : @Eq (S4x512x512.Idx → EReal) (V m c main_v1)
    (transpose S4x512x512 [0, 2, 1] (truncf (F := Ideal) .bf16 (m ((c : Thread nD τ).loc main_arg1)) bitsLt_bf16_f32)
        transposes_S4x512x512_S4x512x512_0_2_1) := by
  dsimp only [V, hostOps0]; after_results

/-! ## The blocks a point reads -/

/-- Row p of the input block at point t is row 1024·t + p of the input. -/
theorem blk0_row (c : Dev nD) (t : Fin cfg0.N) (p : Fin 1024) (R : Fin 16384) (hR : R.val = t.val * 1024 + p.val) :
    rowOf (iblk m c 0 t : Vec Ideal S1024x512 .f32) p = rowOf (m ((c : Thread nD τ).loc main_arg0)) R := by
  funext d
  obtain ⟨e0, e1, -⟩ := idx_facts t
  show (iblk m c 0 t : Vec Ideal S1024x512 .f32) (ix2 p d) = (m ((c : Thread nD τ).loc main_arg0)) (ix2 R d)
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = R.val; rw [e0, hR]; omega
  | ⟨1, _⟩ => show win0_0.index t (1 : Fin 2) * 512 + 1 * d.val = d.val; rw [e1]; omega

/-- The weight block at any point is the whole transposed stack: the weights the specification uses. -/
theorem blk1_stack (c : Dev nD) (t : Fin cfg0.N) :
    stackW (iblk m c 1 t : Vec Ideal S4x512x512 .bf16) = weightOf (m ((c : Thread nD τ).loc main_arg1)) := by
  funext l k e
  obtain ⟨-, -, e2, e3, e4, -⟩ := idx_facts t
  show (iblk m c 1 t : Vec Ideal S4x512x512 .bf16) (ix3 l k e) = (m ((c : Thread nD τ).loc main_arg1)) (ix3 l e k)
  unfold iblk
  rw [View.read_apply]
  show V m c main_v1 _ = _
  have hemb : ((cfg0.win 1).blk t).view.emb (ix3 l k e) = ix3 l k e := funext fun a => Fin.ext (by
    match a with
    | ⟨0, _⟩ => show win0_1.index t (0 : Fin 3) * 4 + 1 * l.val = l.val; rw [e2]; omega
    | ⟨1, _⟩ => show win0_1.index t (1 : Fin 3) * 512 + 1 * k.val = k.val; rw [e3]; omega
    | ⟨2, _⟩ => show win0_1.index t (2 : Fin 3) * 512 + 1 * e.val = e.val; rw [e4]; omega)
  rw [hemb]
  refine (congrFun (V_weights m c) (ix3 l k e)).trans ?_
  rw [transpose_ix3_021_apply, truncf_apply]

/-- The bias block at any point is the whole bias stack. -/
theorem blk2_stack (c : Dev nD) (t : Fin cfg0.N) :
    stackB (iblk m c 2 t : Vec Ideal S4x512 .f32) = biasOf (m ((c : Thread nD τ).loc main_arg2)) := by
  funext l e
  obtain ⟨-, -, -, -, -, e5, e6, -⟩ := idx_facts t
  show (iblk m c 2 t : Vec Ideal S4x512 .f32) (ix2 l e) = (m ((c : Thread nD τ).loc main_arg2)) (ix2 l e)
  unfold iblk
  rw [View.read_apply]
  show V m c main_arg2 _ = _
  rw [V_main_arg2]
  refine congrArg _ (funext fun a => Fin.ext ?_)
  match a with
  | ⟨0, _⟩ => show win0_2.index t (0 : Fin 2) * 4 + 1 * l.val = l.val; rw [e5]; omega
  | ⟨1, _⟩ => show win0_2.index t (1 : Fin 2) * 512 + 1 * e.val = e.val; rw [e6]; omega

/-! ## What a point writes back, and the whole array -/

/-- Point t writes back block t of the specification's array. -/
theorem flushed_eq (c : Dev nD) (t : Fin cfg0.N) :
    (dats m 0 c).flushed 3 t = ((cfg0.win 3).blk t).view.read (Elt Ideal)
      (crossOut (m ((c : Thread nD τ).loc main_arg0)) (m ((c : Thread nD τ).loc main_arg1)) (m ((c : Thread nD τ).loc main_arg2))) := by
  have e := out_eq (iblk m c 0 t) (iblk m c 1 t) (iblk m c 2 t)
  rw [flushed3, e]
  refine funext fun (j : S1024x2048.Idx) => ?_
  obtain ⟨p, q, rfl⟩ : ∃ (p : Fin 1024) (q : Fin 2048), j = ix2 p q := ⟨j 0, j 1, eq_ix2 j⟩
  have hR : t.val * 1024 + p.val < 16384 := by
    have ht : t.val < 16 := Nat.lt_of_lt_of_eq t.isLt N_0
    have := p.isLt; omega
  obtain ⟨-, -, -, -, -, -, -, e7, e8⟩ := idx_facts t
  have hemb : ((cfg0.win 3).blk t).view.emb (ix2 p q) = ix2 (⟨t.val * 1024 + p.val, hR⟩ : Fin 16384) q :=
    funext fun a => Fin.ext (by
      match a with
      | ⟨0, _⟩ => show win0_3.index t (0 : Fin 2) * 1024 + 1 * p.val = t.val * 1024 + p.val; rw [e7]; omega
      | ⟨1, _⟩ => show win0_3.index t (1 : Fin 2) * 2048 + 1 * q.val = q.val; rw [e8]; omega)
  show crossRows (iblk m c 0 t : Vec Ideal S1024x512 .f32) (stackW (iblk m c 1 t : Vec Ideal S4x512x512 .bf16))
      (stackB (iblk m c 2 t : Vec Ideal S4x512 .f32)) (ix2 p q)
    = crossOut (m ((c : Thread nD τ).loc main_arg0)) (m ((c : Thread nD τ).loc main_arg1)) (m ((c : Thread nD τ).loc main_arg2)) (((cfg0.win 3).blk t).view.emb (ix2 p q))
  rw [hemb]
  unfold crossOut
  rw [crossRows_apply, crossRows_apply, blk0_row m c t p ⟨_, hR⟩ rfl, blk1_stack m c t, blk2_stack m c t]

/-- An index of the result array is in point t's block iff each coordinate is in the block's range on its axis. -/
theorem mem_blk (t : Fin cfg0.N) (i : S16384x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v2).slice (win0_3.rect t)).set ↔ _
  rw [View.set_slice_whole, Rect.mem_set_unit]
  exact Iff.rfl

/-- Every index of the result array is in the block of the point its row belongs to. -/
theorem cover (i : S16384x2048.Idx) :
    ∃ t : Fin cfg0.N, (cfg0.win 3).flush t = true ∧ i ∈ ((cfg0.win 3).blk t).view.set := by
  have h0 : (i 0).val < 16384 := (i 0).isLt
  have h1 : (i 1).val < 2048 := (i 1).isLt
  have hN : cfg0.N = 16 := N_0
  have ht : (i 0).val / 1024 < cfg0.N := by rw [hN]; omega
  obtain ⟨-, -, -, -, -, -, -, e7, e8⟩ := idx_facts ⟨(i 0).val / 1024, ht⟩
  refine ⟨⟨(i 0).val / 1024, ht⟩, flush0_3 _, ?_⟩
  rw [mem_blk]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e7]
    show (i 0).val / 1024 * 1024 ≤ (i 0).val ∧ (i 0).val < (i 0).val / 1024 * 1024 + 1024
    omega
  | ⟨1, _⟩ =>
    show win0_3.index ⟨(i 0).val / 1024, ht⟩ (1 : Fin 2) * 2048 ≤ (i 1).val
      ∧ (i 1).val < win0_3.index ⟨(i 0).val / 1024, ht⟩ (1 : Fin 2) * 2048 + 2048
    rw [e8]
    omega

/-- The result array after the run is the specification's array of the argument arrays. -/
theorem final (c : Dev nD) : (dats m 0 c).arrAt 3 cfg0.N
    = crossOut (m ((c : Thread nD τ).loc main_arg0)) (m ((c : Thread nD τ).loc main_arg1)) (m ((c : Thread nD τ).loc main_arg2)) :=
  (dats m 0 c).arrAt_eq_of_cover 3 _ (fun t _ => flushed_eq m c t) cover

/-- The run: every execution ends with the result array at the specification's array and the arguments unchanged. -/
theorem run : θ_run defs (onTc (τ := τ) (main (F := Ideal))) ⟨m, fun _ => 0, ρ⟩ fun r => ∀ c : Dev nD,
      r.2.mem ((c : Thread nD τ).loc main_v2)
        = crossOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.CrossValue

end
-- ==== Proof.CrossHost.lean ====
/-
  The two steps of the layer stack over the whole [16384, 512] array, as a host program spells them, read one
  row at a time.

  A dense layer: the array is contracted with a [512, 512] matrix along BOTH second axes (rows by rows, so the
  matrix is used output-major), the matrix being one slab of a [4, 512, 512] stack with its unit axis dropped;
  the bias is one row of a [4, 512] stack, viewed as a vector, then repeated over the 16384 rows.

  A residual step: the product of two arrays is summed along the second axis starting from the value of the
  all-zero word, which is the real 0; the 16384 sums are viewed as a column, repeated along the row, and added.
-/
import proofs.«168108_j60430189854994_2_alg».proof.Proof.Gen.ReferenceIdeal.Read
import Idealize.ShloMosaic.PureOps.Ideal.Laws
import Idealize.ShloMosaic.Lib.ValueIdx
import Idealize.ShloMosaic.Lib.ValueLayout
import Idealize.ShloMosaic.Lib.Pipeline.Value
import proofs.«168108_j60430189854994_2_alg».proof.Proof.LibRowOps
import proofs.«168108_j60430189854994_2_alg».proof.Proof.LibDense
import proofs.«168108_j60430189854994_2_alg».proof.Proof.CrossSpec

noncomputable section

namespace Cert.ReferenceIdeal.CrossHost

open Cert.ReferenceIdeal Cert.ReferenceIdeal.Gen Cert.ReferenceIdeal.Read
open Idealize.ShloMosaic Idealize.ShloMosaic.ValueIdx Cert.Cross Cert.RowOps Cert.Dense

/-- The host's product of rows by rows at (r, e): the dot product of row r of the left operand with row e of the
    right one. -/
theorem rowsByRows_apply (A : FVec Ideal S16384x512 .f32) (Wm : FVec Ideal S512x512 .f32) (r : Fin 16384) (e : Fin 512) :
    Host.dotGeneral dot_S16384x512_S512x512_S16384x512_1_1_0_0_n_n none A Wm (ix2 r e) = ∑ k : Fin 512, A (ix2 r k) * Wm (ix2 e k) := by
  simp only [Host.dotGeneral]
  rw [Ideal.dotGeneral_apply, ← Equiv.sum_comp (contrEquiv1 dot_S16384x512_S512x512_S16384x512_1_1_0_0_n_n 512 rfl rfl).symm]
  refine Finset.sum_congr rfl fun k _ => ?_
  have hk := contrEquiv1_symm_val dot_S16384x512_S512x512_S16384x512_1_1_0_0_n_n 512 rfl rfl k
  have el : dot_S16384x512_S512x512_S16384x512_1_1_0_0_n_n.lhsIdx (ix2 r e) ((contrEquiv1 dot_S16384x512_S512x512_S16384x512_1_1_0_0_n_n 512 rfl rfl).symm k) = ix2 r k :=
    funext fun a => Fin.ext (by
      match a with
      | ⟨0, _⟩ => exact lhs_main_v2_0 _ _
      | ⟨1, _⟩ => exact (lhs_main_v2_1 _ _).trans hk)
  have er : dot_S16384x512_S512x512_S16384x512_1_1_0_0_n_n.rhsIdx (ix2 r e) ((contrEquiv1 dot_S16384x512_S512x512_S16384x512_1_1_0_0_n_n 512 rfl rfl).symm k) = ix2 e k :=
    funext fun a => Fin.ext (by
      match a with
      | ⟨0, _⟩ => exact rhs_main_v2_0 _ _
      | ⟨1, _⟩ => exact (rhs_main_v2_1 _ _).trans hk)
  rw [el, er]

/-- Slab `l` of the weight stack with its unit axis dropped, at (e, k). -/
theorem slabOfStack_apply (o : Nat) (l : Fin 4) (hl : l.val = o) (W : FVec Ideal S4x512x512 .f32)
    (h : S4x512x512.Slices ![o, 0, 0] S1x512x512) (hs : S1x512x512.ShapeCasts S512x512) (e k : Fin 512) :
    shapeCast S512x512 (extractStridedSlice S1x512x512 ![o, 0, 0] W h) hs (ix2 e k) = W (ix3 l e k) := by
  rw [shapeCast_1ab_ab_apply]
  exact extractStridedSlice_apply ![o, 0, 0] W h (ix3 (0 : Fin 1) e k) (ix3 l e k) (fun a => match a with
    | ⟨0, _⟩ => by show l.val = o + 0; omega
    | ⟨1, _⟩ => by show e.val = 0 + e.val; omega
    | ⟨2, _⟩ => by show k.val = 0 + k.val; omega)

/-- Row `l` of the bias stack viewed as a vector, at e. -/
theorem rowOfStack_apply (o : Nat) (l : Fin 4) (hl : l.val = o) (B : FVec Ideal S4x512 .f32)
    (h : S4x512.Slices ![o, 0] S1x512) (hs : S1x512.ShapeCasts S512) (e : Fin 512) :
    shapeCast S512 (extractStridedSlice S1x512 ![o, 0] B h) hs (ix1 e) = B (ix2 l e) := by
  rw [shapeCast_1a_a_apply]
  exact extractStridedSlice_apply ![o, 0] B h (ix2 (0 : Fin 1) e) (ix2 l e) (fun a => match a with
    | ⟨0, _⟩ => by show l.val = o + 0; omega
    | ⟨1, _⟩ => by show e.val = 0 + e.val; omega)

/-- A dense layer over the whole array, one row at a time. -/
theorem hostDense_row (A : FVec Ideal S16384x512 .f32) (W : FVec Ideal S4x512x512 .f32) (B : FVec Ideal S4x512 .f32)
    (o : Nat) (l : Fin 4) (hl : l.val = o)
    (hW : S4x512x512.Slices ![o, 0, 0] S1x512x512) (hsW : S1x512x512.ShapeCasts S512x512)
    (hB : S4x512.Slices ![o, 0] S1x512) (hsB : S1x512.ShapeCasts S512)
    (g1 : S512.BroadcastsInDim S1x512 ![1]) (g2 : S1x512.BroadcastsInDim S16384x512 ![0, 1]) (r : Fin 16384) :
    rowOf (addf (Host.dotGeneral dot_S16384x512_S512x512_S16384x512_1_1_0_0_n_n none A
          (shapeCast S512x512 (extractStridedSlice S1x512x512 ![o, 0, 0] W hW) hsW))
        (broadcastInDim S16384x512 ![0, 1] g2 (broadcastInDim S1x512 ![1] g1
          (shapeCast S512 (extractStridedSlice S1x512 ![o, 0] B hB) hsB)))) r
      = dense (weightOf W l) (biasOf B l) (rowOf A r) := by
  funext e
  show addf _ _ (ix2 r e) = (∑ k : Fin 512, A (ix2 r k) * W (ix3 l e k)) + B (ix2 l e)
  rw [addf_apply, hostRowBias_apply, rowOfStack_apply o l hl, rowsByRows_apply]
  refine congrArg (· + B (ix2 l e)) (Finset.sum_congr rfl fun k _ => ?_)
  rw [slabOfStack_apply o l hl]

/-- A residual step over the whole array, one row at a time. -/
theorem hostResid_row (A U : FVec Ideal S16384x512 .f32) (hr : S16384x512.ReducesTo [1] S16384) (h0 : 0 < S_.numel)
    (g1 : S16384.BroadcastsInDim S16384x1 ![0]) (g2 : S16384x1.BroadcastsInDim S16384x512 ![0, 1]) (r : Fin 16384) :
    rowOf (addf A (broadcastInDim S16384x512 ![0, 1] g2 (broadcastInDim S16384x1 ![0] g1
        (Host.reduceAdd (mulf A U) (constant (F := Ideal) S_ .f32 0x00000000#32) hr h0)))) r
      = resid (rowOf A r) (rowOf U r) := by
  funext d
  show addf _ _ (ix2 r d) = A (ix2 r d) + ∑ k : Fin 512, A (ix2 r k) * U (ix2 r k)
  rw [addf_apply]
  refine congrArg (A (ix2 r d) + ·) ?_
  rw [broadcastInDim_apply ![0, 1] g2 _ (ix2 r d) (ix2 r (0 : Fin 1)) (fun a => match a with
        | ⟨0, _⟩ => by show r.val = if (16384 : Nat) = 1 then 0 else r.val; rw [if_neg (by decide)]
        | ⟨1, _⟩ => by show 0 = if (1 : Nat) = 1 then 0 else d.val; rw [if_pos rfl]),
    broadcastInDim_apply ![0] g1 _ (ix2 r (0 : Fin 1)) (ix1 r) (fun a => match a with
        | ⟨0, _⟩ => by show r.val = if (16384 : Nat) = 1 then 0 else r.val; rw [if_neg (by decide)])]
  simp only [Host.reduceAdd, Ideal.hostReduceAdd_def]
  rw [Ideal.hostReduceAdd_single hr (by decide), constant_apply, Ideal.ofBits_zero_f32, zero_add]
  exact Finset.sum_congr rfl fun k _ => congrArg (mulf A U) (lift_row _ r k)

end Cert.ReferenceIdeal.CrossHost

end
-- ==== Proof.CrossRef.lean ====
/-
  The reference program's result is the layer stack of the specification.

  Its operations compute, over the whole [16384, 512] input, the same chain a single row goes through: a dense
  layer, then for each later layer the residual steps against the input and the earlier activations followed by
  the next dense layer.  Each intermediate array is identified row by row, in program order; the last operation
  lays the four activations side by side along the second axis.
-/
import proofs.«168108_j60430189854994_2_alg».proof.Proof.CrossHost

noncomputable section

namespace Cert.ReferenceIdeal.CrossRef

open Cert.ReferenceIdeal Cert.ReferenceIdeal.Gen Cert.ReferenceIdeal.Read Cert.ReferenceIdeal.CrossHost
open Idealize.ShloMosaic Idealize.ShloMosaic.ValueIdx Cert.Cross

variable (X : FVec Ideal S16384x512 .f32) (W : FVec Ideal S4x512x512 .f32) (B : FVec Ideal S4x512 .f32) (r : Fin 16384)

/-! ## Layer 0 -/

theorem row_v7 : rowOf (val_main_v7 (F := Ideal) X W B) r = act0 (weightOf W) (biasOf B) (rowOf X r) := by
  unfold val_main_v7 val_main_v2 val_main_v1 val_main_v0 val_main_v6 val_main_v5 val_main_v4 val_main_v3
  exact hostDense_row X W B 0 0 rfl _ _ _ _ _ _ r

/-! ## Layer 1: one residual step, against the input -/

theorem row_v12 : rowOf (val_main_v12 (F := Ideal) X W B) r
    = resid (act0 (weightOf W) (biasOf B) (rowOf X r)) (rowOf X r) := by
  unfold val_main_v12 val_main_v11 val_main_v10 val_main_v9 val_main_v8 val_main_cst
  refine (hostResid_row (val_main_v7 (F := Ideal) X W B) X _ _ _ _ r).trans ?_
  rw [row_v7]

theorem row_v20 : rowOf (val_main_v20 (F := Ideal) X W B) r = act1 (weightOf W) (biasOf B) (rowOf X r) := by
  unfold val_main_v20 val_main_v15 val_main_v14 val_main_v13 val_main_v19 val_main_v18 val_main_v17 val_main_v16
  refine (hostDense_row (val_main_v12 (F := Ideal) X W B) W B 1 1 rfl _ _ _ _ _ _ r).trans ?_
  rw [row_v12]
  rfl

/-! ## Layer 2: residual steps against the input and the first activation -/

theorem row_v25 : rowOf (val_main_v25 (F := Ideal) X W B) r
    = resid (act1 (weightOf W) (biasOf B) (rowOf X r)) (rowOf X r) := by
  unfold val_main_v25 val_main_v24 val_main_v23 val_main_v22 val_main_v21 val_main_cst_0
  refine (hostResid_row (val_main_v20 (F := Ideal) X W B) X _ _ _ _ r).trans ?_
  rw [row_v20]

theorem row_v30 : rowOf (val_main_v30 (F := Ideal) X W B) r
    = resid (resid (act1 (weightOf W) (biasOf B) (rowOf X r)) (rowOf X r)) (act0 (weightOf W) (biasOf B) (rowOf X r)) := by
  unfold val_main_v30 val_main_v29 val_main_v28 val_main_v27 val_main_v26 val_main_cst_1
  refine (hostResid_row (val_main_v25 (F := Ideal) X W B) (val_main_v7 (F := Ideal) X W B) _ _ _ _ r).trans ?_
  rw [row_v25, row_v7]

theorem row_v38 : rowOf (val_main_v38 (F := Ideal) X W B) r = act2 (weightOf W) (biasOf B) (rowOf X r) := by
  unfold val_main_v38 val_main_v33 val_main_v32 val_main_v31 val_main_v37 val_main_v36 val_main_v35 val_main_v34
  refine (hostDense_row (val_main_v30 (F := Ideal) X W B) W B 2 2 rfl _ _ _ _ _ _ r).trans ?_
  rw [row_v30]
  rfl

/-! ## Layer 3: residual steps against the input and the first two activations -/

theorem row_v43 : rowOf (val_main_v43 (F := Ideal) X W B) r
    = resid (act2 (weightOf W) (biasOf B) (rowOf X r)) (rowOf X r) := by
  unfold val_main_v43 val_main_v42 val_main_v41 val_main_v40 val_main_v39 val_main_cst_2
  refine (hostResid_row (val_main_v38 (F := Ideal) X W B) X _ _ _ _ r).trans ?_
  rw [row_v38]

theorem row_v48 : rowOf (val_main_v48 (F := Ideal) X W B) r
    = resid (resid (act2 (weightOf W) (biasOf B) (rowOf X r)) (rowOf X r)) (act0 (weightOf W) (biasOf B) (rowOf X r)) := by
  unfold val_main_v48 val_main_v47 val_main_v46 val_main_v45 val_main_v44 val_main_cst_3
  refine (hostResid_row (val_main_v43 (F := Ideal) X W B) (val_main_v7 (F := Ideal) X W B) _ _ _ _ r).trans ?_
  rw [row_v43, row_v7]

theorem row_v53 : rowOf (val_main_v53 (F := Ideal) X W B) r
    = resid (resid (resid (act2 (weightOf W) (biasOf B) (rowOf X r)) (rowOf X r)) (act0 (weightOf W) (biasOf B) (rowOf X r)))
        (act1 (weightOf W) (biasOf B) (rowOf X r)) := by
  unfold val_main_v53 val_main_v52 val_main_v51 val_main_v50 val_main_v49 val_main_cst_4
  refine (hostResid_row (val_main_v48 (F := Ideal) X W B) (val_main_v20 (F := Ideal) X W B) _ _ _ _ r).trans ?_
  rw [row_v48, row_v20]

theorem row_v61 : rowOf (val_main_v61 (F := Ideal) X W B) r = act3 (weightOf W) (biasOf B) (rowOf X r) := by
  unfold val_main_v61 val_main_v56 val_main_v55 val_main_v54 val_main_v60 val_main_v59 val_main_v58 val_main_v57
  refine (hostDense_row (val_main_v53 (F := Ideal) X W B) W B 3 3 rfl _ _ _ _ _ _ r).trans ?_
  rw [row_v53]
  rfl

end Cert.ReferenceIdeal.CrossRef

end
-- ==== Proof.CrossRefOut.lean ====
/-
  The reference's last operation lays the four activation arrays side by side along the second axis: column c
  of the result is column c mod 512 of activation number c div 512.  With each activation array identified row by
  row, the reference's result is the specification's array.
-/
import proofs.«168108_j60430189854994_2_alg».proof.Proof.CrossRef
import Idealize.ShloMosaic.Lib.Pipeline.Value

noncomputable section

namespace Cert.ReferenceIdeal.CrossRef

open Cert.ReferenceIdeal Cert.ReferenceIdeal.Gen Cert.ReferenceIdeal.Read
open Idealize.ShloMosaic Idealize.ShloMosaic.ValueIdx Cert.Cross

/-- Four [16384, 512] arrays joined along the second axis, at (r, c): the rows r of the four, laid end to end, at c. -/
theorem joinedCols_apply (f0 f1 f2 f3 : FVec Ideal S16384x512 .f32)
    (h : Shape.Concatenates [S16384x512, S16384x512, S16384x512, S16384x512] S16384x2048 1) (r : Fin 16384) (c : Fin 2048) :
    concatenate S16384x2048 1 [⟨S16384x512, f0⟩, ⟨S16384x512, f1⟩, ⟨S16384x512, f2⟩, ⟨S16384x512, f3⟩] h (ix2 r c)
      = joined (rowOf f0 r) (rowOf f1 r) (rowOf f2 r) (rowOf f3 r) c := by
  have hc := c.isLt
  have key := concatenate_apply_piece (α := EReal) (t := S16384x2048) 1
    [⟨S16384x512, f0⟩, ⟨S16384x512, f1⟩, ⟨S16384x512, f2⟩, ⟨S16384x512, f3⟩] h (ix2 r c)
  have hrest : ∀ (q : Fin 512) (b : Fin S16384x512.rank),
      b.cast (rfl : S16384x512.rank = S16384x2048.rank) ≠ (1 : Fin S16384x2048.rank) →
      ((ix2 r q : S16384x512.Idx) b).val = ((ix2 r c : S16384x2048.Idx) (b.cast rfl)).val :=
    fun q b hb => match b, hb with
      | ⟨0, _⟩, _ => rfl
      | ⟨1, _⟩, hb => absurd rfl hb
  by_cases h0 : c.val < 512
  · rw [joined_first _ _ _ _ c ⟨c.val, h0⟩ rfl]
    exact key 0 (by show (0 : Nat) < 4; decide) S16384x512 f0 rfl rfl 0 rfl (ix2 r ⟨c.val, h0⟩) (hrest _)
      (by show 0 + c.val = c.val; omega)
  by_cases h1 : c.val < 1024
  · rw [joined_second _ _ _ _ c ⟨c.val - 512, by omega⟩ (by show c.val = 512 + (c.val - 512); omega)]
    exact key 1 (by show (1 : Nat) < 4; decide) S16384x512 f1 rfl rfl 512 rfl (ix2 r ⟨c.val - 512, by omega⟩) (hrest _)
      (by show 512 + (c.val - 512) = c.val; omega)
  by_cases h2 : c.val < 1536
  · rw [joined_third _ _ _ _ c ⟨c.val - 1024, by omega⟩ (by show c.val = 1024 + (c.val - 1024); omega)]
    exact key 2 (by show (2 : Nat) < 4; decide) S16384x512 f2 rfl rfl 1024 rfl (ix2 r ⟨c.val - 1024, by omega⟩) (hrest _)
      (by show 1024 + (c.val - 1024) = c.val; omega)
  · rw [joined_fourth _ _ _ _ c ⟨c.val - 1536, by omega⟩ (by show c.val = 1536 + (c.val - 1536); omega)]
    exact key 3 (by show (3 : Nat) < 4; decide) S16384x512 f3 rfl rfl 1536 rfl (ix2 r ⟨c.val - 1536, by omega⟩) (hrest _)
      (by show 1536 + (c.val - 1536) = c.val; omega)

/-- The reference's result is the specification's array. -/
theorem result_eq (X : FVec Ideal S16384x512 .f32) (W : FVec Ideal S4x512x512 .f32) (B : FVec Ideal S4x512 .f32) :
    val_main_v62 (F := Ideal) X W B = crossOut X W B := by
  funext i
  obtain ⟨r, c, rfl⟩ : ∃ (r : Fin 16384) (c : Fin 2048), i = ix2 r c := ⟨i 0, i 1, eq_ix2 i⟩
  unfold val_main_v62 crossOut
  rw [joinedCols_apply, row_v7, row_v20, row_v38, row_v61, crossRows_apply]

end Cert.ReferenceIdeal.CrossRef

end
-- ==== Proof.lean ====
/-
  The kernel and its reference compute one function of (x, W, b) on the extended reals.

  Both programs carry every row of x through four dense layers with dot-product residuals (Proof/CrossSpec.lean):
  layer l multiplies by the transpose of W[l] and adds b[l]; before layer l ≥ 1 the previous output is corrected,
  once for each of x, y₀, …, y_{l-2} in that order, by adding its dot product with that earlier activation to every
  entry; the four outputs are laid side by side.  The kernel does this 1024 rows at a time, with the weights
  transposed once beforehand and used in a plain matrix product; the reference does it on the whole array, contracting
  with W[l] along its second axis.  A matrix product into a zero accumulator and a contraction are the same finite sum,
  a row sum started from the zero word is the same finite sum, and a change of float format is the identity, so the
  two results agree index by index with no condition on the inputs: only the order of the terms of finite sums is
  never changed, and no law that fails at an infinity is used.

  The kernel's result array is identified in Proof/CrossArray.lean (over CrossPayload, CrossBody), the reference's in
  Proof/CrossRefOut.lean (over CrossHost, CrossRef).  No operation of the kernel is rewritten in its idealized text, so
  the conjunct relating the two is trivial.
-/
import proofs.«168108_j60430189854994_2_alg».proof.Defs
import proofs.«168108_j60430189854994_2_alg».proof.Proof.Gen.Kernel
import proofs.«168108_j60430189854994_2_alg».proof.Proof.Gen.Kernel.Skeleton
import proofs.«168108_j60430189854994_2_alg».proof.Proof.Gen.Kernel.Launch
import proofs.«168108_j60430189854994_2_alg».proof.Proof.Gen.Kernel.Points
import proofs.«168108_j60430189854994_2_alg».proof.Proof.Gen.Kernel.Frame
import proofs.«168108_j60430189854994_2_alg».proof.Proof.Gen.KernelIdeal
import proofs.«168108_j60430189854994_2_alg».proof.Proof.Gen.KernelIdeal.Skeleton
import proofs.«168108_j60430189854994_2_alg».proof.Proof.Gen.KernelIdeal.Launch
import proofs.«168108_j60430189854994_2_alg».proof.Proof.Gen.KernelIdeal.Points
import proofs.«168108_j60430189854994_2_alg».proof.Proof.Gen.KernelIdeal.Frame
import proofs.«168108_j60430189854994_2_alg».proof.Proof.Gen.ReferenceIdeal
import proofs.«168108_j60430189854994_2_alg».proof.Proof.Gen.KernelIdeal.Value
import proofs.«168108_j60430189854994_2_alg».proof.Proof.Gen.ReferenceIdeal.Run
import proofs.«168108_j60430189854994_2_alg».proof.Proof.Gen.ReferenceIdeal.Read
import proofs.«168108_j60430189854994_2_alg».proof.Proof.Gen.Pre_finite_inputs
import proofs.«168108_j60430189854994_2_alg».proof.Proof.CrossArray
import proofs.«168108_j60430189854994_2_alg».proof.Proof.CrossRefOut
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories agreeing on x, W and b, both programs end with the layer stack of the specification. -/
theorem algebraic : Cert.algebraic_KernelIdeal_ReferenceIdeal := by
  intro m ρ m' ρ' _ hagree
  refine ⟨fun c => Cert.Cross.crossOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.CrossValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.ReferenceIdeal.CrossRef.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
